-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S1x8192 .f32) (main_arg1 : FVec F S8192x8192 .f32) (main_arg2 : FVec F S8192 .f32) (main_arg3 : FVec F S8192 .f32) (main_arg4 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S1x8192 : Shape := ⟨2, ![1, 8192]⟩
abbrev S8192x8192 : Shape := ⟨2, ![8192, 8192]⟩
abbrev S8192 : Shape := ⟨1, ![8192]⟩
abbrev S256x8192 : Shape := ⟨2, ![256, 8192]⟩
abbrev S1x256 : Shape := ⟨2, ![1, 256]⟩

abbrev nBuf : Space → Nat
  | .hbm => 10
  | .vmem => 8
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S8192, .f32⟩
  | .local _ .vmem, ⟨0, _⟩ => ⟨S1x8192, .f32⟩
  | .local _ .vmem, ⟨1, _⟩ => ⟨S256x8192, .f32⟩
  | .local _ .vmem, ⟨2, _⟩ => ⟨S256x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S1x256, .f32⟩
  | .local _ .vmem, ⟨7, _⟩ => ⟨S1x256, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0_4 : Index := 0#32
  let arg0 : BitVec 32 := BitVec.ofNat 32 (i 0).val
  let c256_i32 : BitVec 32 := 256#32
  let v0 : BitVec 32 := Scalar.muli arg0 c256_i32
  let v1 : BitVec 32 := v0
  let v11 : Index := Scalar.indexCast v1
  ![0, v11.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  natLt_1_32 : 1 < 32
  bitsLt_bf16_f32 : FTy.bits .bf16 < FTy.bits .f32
  inb_S1x8192_S1x8192_0_0 : ∀ a, (![0, 0] : Fin 2 → Nat) a + S1x8192.size a ≤ S1x8192.size a
  h_S1x8192 : 0 < S1x8192.numel
  h_S1x256 : 0 < S1x256.numel
  shapeCasts_S1x256_S1x256 : S1x256.ShapeCasts S1x256
  inb_S1x256_S1x256_0_0 : ∀ a, (![0, 0] : Fin 2 → Nat) a + S1x256.size a ≤ S1x256.size a
  shapeCasts_S1x8192_S8192 : S1x8192.ShapeCasts S8192
  dot_S1x8192_S256x8192_S1x256_1_1_0_0_n_n_wf : DotDims.WF S1x8192 S256x8192 S1x256 [1] [1] [0] [0] [] []
  hrank0 : 0 < grid0.rank
  k0_mult1_dvd : ∀ i : grid0.Coords, 256 ∣ (k0_mult1 i).toNat
  k0_off1_inb : ∀ i : grid0.Coords, ∀ a, (k0_off1 i) a + S1x256.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x8192.size a
  hwx0_5 : ∀ i : grid0.Coords, EltTy.bits .f32 = 32 ∨ (Rect.block (s := S1x8192) S1x256.size (cc0_transform_5 i) (hinb0_5 i)).WholeWords (EltTy.packing .f32)

variable [Facts₀]

def dot_S1x8192_S256x8192_S1x256_1_1_0_0_n_n : DotDims S1x8192 S256x8192 S1x256 where
  lhsContracting := [1]
  rhsContracting := [1]
  lhsNonContracting := [0]
  rhsNonContracting := [0]
  lhsBatch := []
  rhsBatch := []
  wf := dot_S1x8192_S256x8192_S1x256_1_1_0_0_n_n_wf

abbrev win0_0 : Pipeline.Window sig grid0 :=
  Pipeline.Window.ofSpec (Memref.whole main_arg0) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S8192x8192, .f32⟩
  | .hbm, ⟨9, _⟩ => ⟨S8192x8192, .f32⟩
  | .hbm, ⟨10, _⟩ => ⟨S1x8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .i1⟩
  | .hbm, ⟨15, _⟩ => ⟨S8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S8192x8192_S8192x8192_1_0 : S8192x8192.Transposes [1, 0] S8192x8192
  shapeCasts_S1x8192_S8192 : S1x8192.ShapeCasts S8192
  dot_S1x8192_S8192x8192_S1x8192_1_0_0_1_n_n_wf : DotDims.WF S1x8192 S8192x8192 S1x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.Spec.lean ====
/-
  The spiking step as one function of the argument arrays, index by index, on the extended reals.

  A synapse's weight is 1 when its state exceeds 50 and 0 otherwise; neuron j's input current is the sum over the
  8192 inputs k of spike k times the weight of synapse (j, k); the neuron fires (its output is 1, else 0) when
  membrane + current + noise reaches its threshold.
-/
import Idealize.ShloMosaic.PureOps.Ideal
import Idealize.ShloMosaic.Lib.ValueIdx

noncomputable section

namespace Cert.Spike

open Idealize.ShloMosaic Idealize.ShloMosaic.ValueIdx

/-- The binary weight of a synapse of state `s`: the bit `s > 50` as a number. -/
def weight (s : Ideal .f32) : Ideal .f32 :=
  FloatOps.uitofp (F := Ideal) .f32 (FloatOps.cmpf (F := Ideal) (φ := .f32) .ogt s (FloatOps.ofBits (F := Ideal) .f32 0x42480000#32))

/-- The spike a neuron emits: the bit `(membrane + current) + noise ≥ threshold` as a number. -/
def fires (mem cur noise thr : Ideal .f32) : Ideal .f32 :=
  FloatOps.uitofp (F := Ideal) .f32 (FloatOps.cmpf (F := Ideal) (φ := .f32) .oge (mem + cur + noise) thr)

/-- Neuron `j`'s input current: the input spikes weighted by row `j` of the synapse matrix. -/
def current (x : (⟨2, ![1, 8192]⟩ : Shape).Idx → Ideal .f32) (syn : (⟨2, ![8192, 8192]⟩ : Shape).Idx → Ideal .f32)
    (j : Fin 8192) : Ideal .f32 :=
  ∑ k : Fin 8192, x (ix2 0 k) * weight (syn (ix2 j k))

/-- The output spikes, neuron by neuron. -/
def spikes (x : (⟨2, ![1, 8192]⟩ : Shape).Idx → Ideal .f32) (syn : (⟨2, ![8192, 8192]⟩ : Shape).Idx → Ideal .f32)
    (mem thr noise : (⟨1, ![8192]⟩ : Shape).Idx → Ideal .f32) : (⟨1, ![8192]⟩ : Shape).Idx → Ideal .f32 :=
  fun i => fires (mem i) (current x syn (i 0)) (noise i) (thr i)

theorem spikes_apply (x : (⟨2, ![1, 8192]⟩ : Shape).Idx → Ideal .f32) (syn : (⟨2, ![8192, 8192]⟩ : Shape).Idx → Ideal .f32)
    (mem thr noise : (⟨1, ![8192]⟩ : Shape).Idx → Ideal .f32) (j : Fin 8192) :
    spikes x syn mem thr noise (ix1 j) = fires (mem (ix1 j)) (current x syn j) (noise (ix1 j)) (thr (ix1 j)) := rfl

end Cert.Spike

end
-- ==== Proof.RefSpec.lean ====
/-
  The reference computes the spiking step: read one operation at a time, its last stage at neuron j is
  the bit (membrane j + current j) + noise j ≥ threshold j as a number, the current the host's product of the
  spike row with the transposed weight matrix — the sum over the inputs k of spike k times the weight of
  synapse (j, k).
-/
import proofs.«137847_j54434415510063_2_alg».proof.Proof.Gen.ReferenceIdeal.Read
import proofs.«137847_j54434415510063_2_alg».proof.Proof.Spec

noncomputable section

namespace Cert.ReferenceIdeal.RefSpec

open Cert.ReferenceIdeal Cert.ReferenceIdeal.Read Idealize.ShloMosaic Idealize.ShloMosaic.ValueIdx

/-- The reshape of the one-row product reads neuron `j` at column `j` of row 0. -/
theorem idx_v5 (j : Fin 8192) : idx_main_v5 (ix1 j) = ix2 0 j :=
  funext fun a => Fin.ext (by
    match a with
    | ⟨0, _⟩ => rfl
    | ⟨1, _⟩ => exact Nat.mod_eq_of_lt j.isLt)
/-- The product's left operand at column `j`, input `k`: the spike row at `k`. -/
theorem lidx_v4 (j k : Fin 8192) : lidx_main_v4 (ix2 0 j) k = ix2 0 k :=
  funext fun a => Fin.ext (by
    match a with
    | ⟨0, _⟩ => rfl
    | ⟨1, _⟩ => rfl)
/-- Its right operand: the transposed weights at (k, j). -/
theorem ridx_v4 (j k : Fin 8192) : ridx_main_v4 (ix2 0 j) k = ix2 k j :=
  funext fun a => Fin.ext (by
    match a with
    | ⟨0, _⟩ => rfl
    | ⟨1, _⟩ => rfl)
/-- The transpose reads (k, j) at (j, k). -/
theorem idx_v3 (j k : Fin 8192) : idx_main_v3 (ix2 k j) = ix2 j k :=
  funext fun a => Fin.ext (by
    match a with
    | ⟨0, _⟩ => rfl
    | ⟨1, _⟩ => rfl)

/-- The reference's last stage is the spiking step of its arguments. -/
theorem ref_eq (x0 : (⟨S1x8192, .f32⟩ : BufTy).Contents (Elt Ideal)) (x1 : (⟨S8192x8192, .f32⟩ : BufTy).Contents (Elt Ideal))
    (x2 x3 x4 : (⟨S8192, .f32⟩ : BufTy).Contents (Elt Ideal)) :
    val_main_v9 (F := Ideal) x0 x1 x2 x3 x4 = Cert.Spike.spikes x0 x1 x2 x3 x4 := by
  funext i
  obtain ⟨j, rfl⟩ : ∃ j : Fin 8192, i = ix1 j := ⟨i 0, eq_ix1 i⟩
  rw [Cert.Spike.spikes_apply, val_main_v9_apply, val_main_v8_apply, val_main_v7_apply, val_main_v6_apply, val_main_v5_apply, idx_v5,
    val_main_v4_apply]
  unfold Cert.Spike.fires Cert.Spike.current
  refine congrArg (fun s => FloatOps.uitofp (F := Ideal) .f32 (FloatOps.cmpf (F := Ideal) (φ := .f32) .oge (x2 (ix1 j) + s + x4 (ix1 j)) (x3 (ix1 j)))) ?_
  refine Finset.sum_congr rfl fun k _ => ?_
  rw [lidx_v4, ridx_v4, val_main_v3_apply, idx_v3, val_main_v2_apply, val_main_v1_apply, val_main_v0_apply, val_main_cst_apply]
  rfl

end Cert.ReferenceIdeal.RefSpec

end
-- ==== Proof.Body.lean ====
/-
  What one run of the kernel body leaves in the output's staging buffer, as a value: the body loads the whole
  synapse block and spike row, three [1, 256] slices of the resident membrane, threshold and noise rows at the
  point's lane offset, and stores one whole [1, 256] row — the stored payload of those loads.
-/
import proofs.«137847_j54434415510063_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zero_offsets : (![0, 0] : Fin 2 → Nat) = fun _ => 0 := funext fun a => by fin_cases a <;> rfl

/-- The one covering store's payload, over the contents the input buffers read: the synapse block and the spike row
    whole, the three resident rows through the [1, 256] rectangle at the point's lane offset. -/
theorem stored_row (c : Dev nD) (i : grid0.Coords) (arg1 : Memref sig .tc .vmem S1x8192 .f32) (harg1 : arg1.IsWhole) (arg2 : Memref sig .tc .vmem S256x8192 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x256 .f32) (harg6 : arg6.IsWhole)
    (x0 : Vec F S1x8192 .f32) (x1 : Vec F S256x8192 .f32) (x2 : Vec F S1x8192 .f32) (x3 : Vec F S1x8192 .f32) (x4 : Vec F S1x8192 .f32) :
    out0_A_5 c i arg1 harg1 arg2 harg2 arg3 harg3 arg4 harg4 arg5 harg5 arg6 harg6 x0 x1 x2 x3 x4
      = k0_pay1 x1 x0 (View.ld x2 (Rect.unit (s := S1x8192) (k0_off1 i) S1x256.size (k0_off1_inb i)))
          (View.ld x3 (Rect.unit (s := S1x8192) (k0_off1 i) S1x256.size (k0_off1_inb i)))
          (View.ld x4 (Rect.unit (s := S1x8192) (k0_off1 i) S1x256.size (k0_off1_inb i))) := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  rw [View.canon_unit_zero zero_offsets]
  simp only [View.readAt_eq_ld, harg1.read_unread, harg2.read_unread, harg3.read_unread, harg4.read_unread, harg5.read_unread,
    View.ld_unit_zero (S := S256x8192) zero_offsets, View.ld_unit_zero (S := S1x8192) zero_offsets]

end Cert.KernelIdeal.Body

end
-- ==== Proof.Payload.lean ====
/-
  What the kernel body stores, read at one lane: from a [256, 8192] block of synapse states, the spike row and the
  three [1, 256] slices of membrane, threshold and noise it loads, lane q of the stored row is the spike of the
  block's q-th neuron. The matrix unit's product into a zero accumulator is the sum over the contracted axis; a
  conversion of a zero-extended bit is the bit as a number; a change of float format is the identity.
-/
import proofs.«137847_j54434415510063_2_alg».proof.Proof.Gen.KernelIdeal.Skeleton
import proofs.«137847_j54434415510063_2_alg».proof.Proof.Spec
import Idealize.ShloMosaic.Lib.ValueIdx
import Idealize.ShloMosaic.Lib.KernelVsHost
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The left operand's index at output lane `j` and contraction index `q`: row `j 0`, column `q`. -/
theorem lhs_0 (j : S1x256.Idx) (q : dot_S1x8192_S256x8192_S1x256_1_1_0_0_n_n.contr.Idx) :
    (dot_S1x8192_S256x8192_S1x256_1_1_0_0_n_n.lhsIdx j q 0).val = (j 0).val := by
  unfold DotDims.lhsIdx
  rw [dif_neg (show ¬(0 : Fin S1x8192.rank) ∈ dot_S1x8192_S256x8192_S1x256_1_1_0_0_n_n.lhsBatch by decide), dif_pos (show (0 : Fin S1x8192.rank) ∈ dot_S1x8192_S256x8192_S1x256_1_1_0_0_n_n.lhsNonContracting by decide)]
  rfl
theorem lhs_1 (j : S1x256.Idx) (q : dot_S1x8192_S256x8192_S1x256_1_1_0_0_n_n.contr.Idx) :
    (dot_S1x8192_S256x8192_S1x256_1_1_0_0_n_n.lhsIdx j q 1).val = (q ⟨0, by decide⟩).val :=
  dot_S1x8192_S256x8192_S1x256_1_1_0_0_n_n.lhsIdx_val_of_single rfl j q
/-- The right operand's: row `j 1` (the neuron within the block), column `q`. -/
theorem rhs_0 (j : S1x256.Idx) (q : dot_S1x8192_S256x8192_S1x256_1_1_0_0_n_n.contr.Idx) :
    (dot_S1x8192_S256x8192_S1x256_1_1_0_0_n_n.rhsIdx j q 0).val = (j 1).val := by
  unfold DotDims.rhsIdx
  rw [dif_neg (show ¬(0 : Fin S256x8192.rank) ∈ dot_S1x8192_S256x8192_S1x256_1_1_0_0_n_n.rhsBatch by decide), dif_pos (show (0 : Fin S256x8192.rank) ∈ dot_S1x8192_S256x8192_S1x256_1_1_0_0_n_n.rhsNonContracting by decide)]
  rfl
theorem rhs_1 (j : S1x256.Idx) (q : dot_S1x8192_S256x8192_S1x256_1_1_0_0_n_n.contr.Idx) :
    (dot_S1x8192_S256x8192_S1x256_1_1_0_0_n_n.rhsIdx j q 1).val = (q ⟨0, by decide⟩).val :=
  dot_S1x8192_S256x8192_S1x256_1_1_0_0_n_n.rhsIdx_val_of_single rfl j q

/-- The product into the zero accumulator at lane `q`: the sum over the 8192 inputs of the spike row times row `q` of
    the weight block. -/
theorem matmul_lane (l : FVec Ideal S1x8192 .bf16) (r : FVec Ideal S256x8192 .bf16) (q : Fin 256) :
    matmul dot_S1x8192_S256x8192_S1x256_1_1_0_0_n_n none l r (constant (F := Ideal) S1x256 .f32 0x00000000#32) (ix2 0 q)
      = ∑ k : Fin 8192, l (ix2 0 k) * r (ix2 q k) := by
  show FloatOps.matmul dot_S1x8192_S256x8192_S1x256_1_1_0_0_n_n none l r (constant (F := Ideal) S1x256 .f32 0x00000000#32) (ix2 0 q) = _
  rw [Ideal.matmul_constant_zero_apply, ← Equiv.sum_comp (contrEquiv1 dot_S1x8192_S256x8192_S1x256_1_1_0_0_n_n 8192 rfl rfl).symm]
  refine Finset.sum_congr rfl fun k _ => ?_
  have hk := contrEquiv1_symm_val dot_S1x8192_S256x8192_S1x256_1_1_0_0_n_n 8192 rfl rfl k
  have el : dot_S1x8192_S256x8192_S1x256_1_1_0_0_n_n.lhsIdx (ix2 0 q) ((contrEquiv1 dot_S1x8192_S256x8192_S1x256_1_1_0_0_n_n 8192 rfl rfl).symm k) = ix2 0 k := funext fun a => Fin.ext (by
    match a with
    | ⟨0, _⟩ => exact lhs_0 _ _
    | ⟨1, _⟩ => exact (lhs_1 _ _).trans hk)
  have er : dot_S1x8192_S256x8192_S1x256_1_1_0_0_n_n.rhsIdx (ix2 0 q) ((contrEquiv1 dot_S1x8192_S256x8192_S1x256_1_1_0_0_n_n 8192 rfl rfl).symm k) = ix2 q k := funext fun a => Fin.ext (by
    match a with
    | ⟨0, _⟩ => exact rhs_0 _ _
    | ⟨1, _⟩ => exact (rhs_1 _ _).trans hk)
  rw [el, er]

/-- A bit zero-extended to a word and converted as a signed integer is the bit as a number. -/
theorem bit_number (b : BitVec 1) :
    FloatOps.sitofp (F := Ideal) .f32 (b.setWidth 32) = FloatOps.uitofp (F := Ideal) .f32 b := by
  show ((((b.setWidth 32).toInt : ℝ)) : EReal) = (((b.toNat : ℝ)) : EReal)
  rw [toInt_setWidth_bit]
  norm_cast

/-- THE PAYLOAD AT A LANE: lane `q` of the row the body stores is the spike of the neuron at row `q` of the synapse
    block, from lane `q` of the membrane, threshold and noise slices. -/
theorem pay_lane (syn : Vec Ideal S256x8192 .f32) (x : Vec Ideal S1x8192 .f32) (mem thr noise : Vec Ideal S1x256 .f32) (q : Fin 256) :
    k0_pay1 (F := Ideal) syn x mem thr noise (ix2 0 q)
      = Cert.Spike.fires (mem (ix2 0 q)) (∑ k : Fin 8192, x (ix2 0 k) * Cert.Spike.weight (syn (ix2 q k))) (noise (ix2 0 q)) (thr (ix2 0 q)) := by
  unfold k0_pay1
  rw [sitofp_apply, extui_apply, bit_number, cmpf_apply, addf_apply, addf_apply, shapeCast_self, shapeCast_self, shapeCast_self, matmul_lane]
  unfold Cert.Spike.fires
  refine congrArg (fun s => FloatOps.uitofp (F := Ideal) .f32 (FloatOps.cmpf (F := Ideal) (φ := .f32) .oge (mem (ix2 0 q) + s + noise (ix2 0 q)) (thr (ix2 0 q)))) ?_
  refine Finset.sum_congr rfl fun k _ => ?_
  rw [truncf_apply, truncf_apply, sitofp_apply, extui_apply, bit_number, cmpf_apply, broadcast_apply]
  rfl

end Cert.KernelIdeal.Payload

end
-- ==== Proof.Blocks.lean ====
/-
  Where each window's block sits at a grid point, and what the region finds in its arrays. Point t of the 32 reads
  the whole spike row, rows 256·t … 256·t + 255 of the synapse matrix, the whole membrane, threshold and noise rows,
  and writes lanes 256·t … 256·t + 255 of the output row; the body's lane offset at point t is 256·t. The three
  resident rows are the host's reshapes of the three vector arguments: row 0, column p holds entry p.
-/
import proofs.«137847_j54434415510063_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps and the body's lane offset, decided over the 32 grid points. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ k0_off1 (grid0.coords t) (0 : Fin 2) = 0 ∧ k0_off1 (grid0.coords t) (1 : Fin 2) = 256 * t.val :=
  (by decide +kernel : ∀ t : Fin grid0.N, _)

/-- The spike row's block at every point is the whole row. -/
theorem spike_block (c : Dev nD) (t : Fin cfg0.N) (y : S1x8192.Idx) :
    (iblk m c 0 t : Vec F S1x8192 .f32) y = V m c main_arg0 y := by
  obtain ⟨e0, e1, -⟩ := index_facts t
  unfold iblk
  rw [View.read_apply]
  show V m c main_arg0 _ = V m c main_arg0 y
  refine congrArg (V m c main_arg0) (funext fun a => Fin.ext ?_)
  match a with
  | ⟨0, _⟩ => show win0_0.index t (0 : Fin 2) * 1 + 1 * (y 0).val = (y 0).val; omega
  | ⟨1, _⟩ => show win0_0.index t (1 : Fin 2) * 8192 + 1 * (y 1).val = (y 1).val; omega

/-- The synapse block at point t: row q of the block is row 256·t + q of the matrix. -/
theorem synapse_block (c : Dev nD) (t : Fin cfg0.N) (q : Fin 256) (k : Fin 8192) (r : Fin 8192) (hr : r.val = 256 * t.val + q.val) :
    (iblk m c 1 t : Vec F S256x8192 .f32) (ix2 q k) = V m c main_arg1 (ix2 r k) := by
  obtain ⟨-, -, e0, e1, -⟩ := index_facts t
  unfold iblk
  rw [View.read_apply]
  show V m c main_arg1 _ = V m c main_arg1 (ix2 r k)
  refine congrArg (V m c main_arg1) (funext fun a => Fin.ext ?_)
  match a with
  | ⟨0, _⟩ => show win0_1.index t (0 : Fin 2) * 256 + 1 * q.val = r.val; omega
  | ⟨1, _⟩ => show win0_1.index t (1 : Fin 2) * 8192 + 1 * k.val = k.val; omega

/-- The membrane, threshold and noise rows' blocks at every point are the whole rows. -/
theorem membrane_block (c : Dev nD) (t : Fin cfg0.N) (y : S1x8192.Idx) :
    (iblk m c 2 t : Vec F S1x8192 .f32) y = V m c main_v0 y := by
  obtain ⟨-, -, -, -, e0, e1, -⟩ := index_facts t
  unfold iblk
  rw [View.read_apply]
  show V m c main_v0 _ = V m c main_v0 y
  refine congrArg (V m c main_v0) (funext fun a => Fin.ext ?_)
  match a with
  | ⟨0, _⟩ => show win0_2.index t (0 : Fin 2) * 1 + 1 * (y 0).val = (y 0).val; omega
  | ⟨1, _⟩ => show win0_2.index t (1 : Fin 2) * 8192 + 1 * (y 1).val = (y 1).val; omega
theorem threshold_block (c : Dev nD) (t : Fin cfg0.N) (y : S1x8192.Idx) :
    (iblk m c 3 t : Vec F S1x8192 .f32) y = V m c main_v1 y := by
  obtain ⟨-, -, -, -, -, -, e0, e1, -⟩ := index_facts t
  unfold iblk
  rw [View.read_apply]
  show V m c main_v1 _ = V m c main_v1 y
  refine congrArg (V m c main_v1) (funext fun a => Fin.ext ?_)
  match a with
  | ⟨0, _⟩ => show win0_3.index t (0 : Fin 2) * 1 + 1 * (y 0).val = (y 0).val; omega
  | ⟨1, _⟩ => show win0_3.index t (1 : Fin 2) * 8192 + 1 * (y 1).val = (y 1).val; omega
theorem noise_block (c : Dev nD) (t : Fin cfg0.N) (y : S1x8192.Idx) :
    (iblk m c 4 t : Vec F S1x8192 .f32) y = V m c main_v2 y := by
  obtain ⟨-, -, -, -, -, -, -, -, e0, e1, -⟩ := index_facts t
  unfold iblk
  rw [View.read_apply]
  show V m c main_v2 _ = V m c main_v2 y
  refine congrArg (V m c main_v2) (funext fun a => Fin.ext ?_)
  match a with
  | ⟨0, _⟩ => show win0_4.index t (0 : Fin 2) * 1 + 1 * (y 0).val = (y 0).val; omega
  | ⟨1, _⟩ => show win0_4.index t (1 : Fin 2) * 8192 + 1 * (y 1).val = (y 1).val; omega

/-- What the region finds in the membrane row: the host's reshape of the membrane vector. -/
theorem membrane_row (c : Dev nD) : (V m c main_v0 : S1x8192.Idx → Elt F .f32)
    = shapeCast S1x8192 (m ((c : Thread nD τ).loc main_arg2)) shapeCasts_S8192_S1x8192 := by
  show StableHlo.after hostOps0 (fun b => m (c, b)) (Proc.devRef .tc main_v0) = _
  after_results; rfl
theorem threshold_row (c : Dev nD) : (V m c main_v1 : S1x8192.Idx → Elt F .f32)
    = shapeCast S1x8192 (m ((c : Thread nD τ).loc main_arg3)) shapeCasts_S8192_S1x8192 := by
  show StableHlo.after hostOps0 (fun b => m (c, b)) (Proc.devRef .tc main_v1) = _
  after_results; rfl
theorem noise_row (c : Dev nD) : (V m c main_v2 : S1x8192.Idx → Elt F .f32)
    = shapeCast S1x8192 (m ((c : Thread nD τ).loc main_arg4)) shapeCasts_S8192_S1x8192 := by
  show StableHlo.after hostOps0 (fun b => m (c, b)) (Proc.devRef .tc main_v2) = _
  after_results; rfl

/-- A vector reshaped to one row reads entry p at row 0, column p. -/
theorem row_of_vector {α : Type} (x : S8192.Idx → α) (p : Fin 8192) :
    shapeCast S1x8192 x shapeCasts_S8192_S1x8192 (ix2 0 p) = x (ix1 p) :=
  shapeCast_apply x shapeCasts_S8192_S1x8192 (ix2 0 p) (ix1 p) (by
    rewrite [Shape.rowMajor_val_two, Shape.rowMajor_val_one]
    show p.val = 0 * 8192 + p.val
    omega)

/-- One row reshaped to a vector reads row 0, column p at entry p. -/
theorem vector_of_row {α : Type} (x : S1x8192.Idx → α) (p : Fin 8192) :
    shapeCast S8192 x shapeCasts_S1x8192_S8192 (ix1 p) = x (ix2 0 p) :=
  shapeCast_apply x shapeCasts_S1x8192_S8192 (ix1 p) (ix2 0 p) (by
    rewrite [Shape.rowMajor_val_two, Shape.rowMajor_val_one]
    show 0 * 8192 + p.val = p.val
    omega)

/-- A [1, 256] slice of a resident row at a point's lane offset reads lane q at column 256·t + q. -/
theorem lane_slice (X : Vec F S1x8192 .f32) (i : grid0.Coords) (tv : Nat) (h0 : k0_off1 i (0 : Fin 2) = 0)
    (h1 : k0_off1 i (1 : Fin 2) = 256 * tv) (q : Fin 256) (p : Fin 8192) (hp : p.val = 256 * tv + q.val) :
    View.ld X (Rect.unit (s := S1x8192) (k0_off1 i) S1x256.size (k0_off1_inb i)) (ix2 0 q) = X (ix2 0 p) := by
  show X ((Rect.unit (s := S1x8192) (k0_off1 i) S1x256.size (k0_off1_inb i)).idx (ix2 0 q)) = X (ix2 0 p)
  refine congrArg X (funext fun a => Fin.ext ?_)
  match a with
  | ⟨0, _⟩ => show k0_off1 i (0 : Fin 2) + 1 * 0 = 0; omega
  | ⟨1, _⟩ => show k0_off1 i (1 : Fin 2) + 1 * q.val = p.val; omega

/-- So, in the arguments' own terms: the spike the body reads at input k, -/
theorem spike_at (c : Dev nD) (t : Fin cfg0.N) (k : Fin 8192) :
    (iblk m c 0 t : Vec F S1x8192 .f32) (ix2 0 k) = m ((c : Thread nD τ).loc main_arg0) (ix2 0 k) :=
  (spike_block m c t (ix2 0 k)).trans (congrFun (V_main_arg0 m c) (ix2 0 k))
/-- the synapse state at row q of point t's block, -/
theorem synapse_at (c : Dev nD) (t : Fin cfg0.N) (q : Fin 256) (k : Fin 8192) (r : Fin 8192) (hr : r.val = 256 * t.val + q.val) :
    (iblk m c 1 t : Vec F S256x8192 .f32) (ix2 q k) = m ((c : Thread nD τ).loc main_arg1) (ix2 r k) :=
  (synapse_block m c t q k r hr).trans (congrFun (V_main_arg1 m c) (ix2 r k))
/-- and the membrane, threshold and noise of neuron p. -/
theorem membrane_at (c : Dev nD) (t : Fin cfg0.N) (p : Fin 8192) :
    (iblk m c 2 t : Vec F S1x8192 .f32) (ix2 0 p) = m ((c : Thread nD τ).loc main_arg2) (ix1 p) := by
  rw [membrane_block, membrane_row, row_of_vector]
theorem threshold_at (c : Dev nD) (t : Fin cfg0.N) (p : Fin 8192) :
    (iblk m c 3 t : Vec F S1x8192 .f32) (ix2 0 p) = m ((c : Thread nD τ).loc main_arg3) (ix1 p) := by
  rw [threshold_block, threshold_row, row_of_vector]
theorem noise_at (c : Dev nD) (t : Fin cfg0.N) (p : Fin 8192) :
    (iblk m c 4 t : Vec F S1x8192 .f32) (ix2 0 p) = m ((c : Thread nD τ).loc main_arg4) (ix1 p) := by
  rw [noise_block, noise_row, row_of_vector]

end Cert.KernelIdeal.Blocks

end
-- ==== Proof.Result.lean ====
/-
  The kernel's result. Point t of the grid writes back lanes 256·t … 256·t + 255 of the output row, lane q of its
  block the spike of neuron 256·t + q; the 32 blocks tile the row, so after the run row 0, column p of the output
  holds neuron p's spike, and the host's reshape of that row to a vector is the spiking step of the arguments.
-/
import proofs.«137847_j54434415510063_2_alg».proof.Proof.Body
import proofs.«137847_j54434415510063_2_alg».proof.Proof.Payload
import proofs.«137847_j54434415510063_2_alg».proof.Proof.Blocks
import proofs.«137847_j54434415510063_2_alg».proof.Proof.Spec

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx

variable (m : (ℓ : Loc nD τ sig) → Buf (Elt Ideal) ℓ) (ρ : Dev nD → PrngReg)

/-- The spiking step of core c's argument arrays. -/
abbrev step (c : Dev nD) : S8192.Idx → Ideal .f32 :=
  Cert.Spike.spikes (m ((c : Thread nD τ).loc main_arg0)) (m ((c : Thread nD τ).loc main_arg1)) (m ((c : Thread nD τ).loc main_arg2))
    (m ((c : Thread nD τ).loc main_arg3)) (m ((c : Thread nD τ).loc main_arg4))

/-- The output row: row 0, column p holds neuron p's spike. -/
def row (c : Dev nD) : S1x8192.Idx → Ideal .f32 := fun i => step m c (ix1 (⟨(i 1).val, idx2_lt1 i⟩ : Fin 8192))

/-- WHAT POINT t WRITES BACK is block t of the output row. -/
theorem written_block (c : Dev nD) (t : Fin cfg0.N) :
    (dats m 0 c).flushed 5 t = ((cfg0.win 5).blk t).view.read (Elt Ideal) (row m c) := by
  have ht : t.val < 32 := by have h := t.isLt; have hN : cfg0.N = 32 := N_0; omega
  obtain ⟨-, -, -, -, -, -, -, -, -, -, e50, e51, o0, o1⟩ := Blocks.index_facts t
  show (cfg0.win 5).cut (grid0.coords t) ((dats m 0 c).after 5 t) = _
  rw [after0_5]
  unfold outsAt0
  rw [Body.stored_row]
  funext (y : S1x256.Idx)
  obtain ⟨q, rfl⟩ : ∃ q : Fin 256, y = ix2 (0 : Fin 1) q :=
    ⟨y 1, funext fun a => by
      match a with
      | ⟨0, _⟩ => exact Fin.ext (by have h : (y 0).val < 1 := idx2_lt0 y; show (y 0).val = 0; omega)
      | ⟨1, _⟩ => rfl⟩
  have hp : 256 * t.val + q.val < 8192 := by have := q.isLt; omega
  show k0_pay1 (F := Ideal) (iblk m c 1 t) (iblk m c 0 t)
      (View.ld (iblk m c 2 t) (Rect.unit (s := S1x8192) (k0_off1 (grid0.coords t)) S1x256.size (k0_off1_inb (grid0.coords t))))
      (View.ld (iblk m c 3 t) (Rect.unit (s := S1x8192) (k0_off1 (grid0.coords t)) S1x256.size (k0_off1_inb (grid0.coords t))))
      (View.ld (iblk m c 4 t) (Rect.unit (s := S1x8192) (k0_off1 (grid0.coords t)) S1x256.size (k0_off1_inb (grid0.coords t))))
      (ix2 0 q) = row m c (((cfg0.win 5).blk t).view.emb (ix2 0 q))
  refine (Payload.pay_lane (iblk m c 1 t) (iblk m c 0 t) _ _ _ q).trans ?_
  rw [Blocks.lane_slice (iblk m c 2 t) (grid0.coords t) t.val o0 o1 q ⟨256 * t.val + q.val, hp⟩ rfl,
    Blocks.lane_slice (iblk m c 3 t) (grid0.coords t) t.val o0 o1 q ⟨256 * t.val + q.val, hp⟩ rfl,
    Blocks.lane_slice (iblk m c 4 t) (grid0.coords t) t.val o0 o1 q ⟨256 * t.val + q.val, hp⟩ rfl,
    Blocks.membrane_at, Blocks.threshold_at, Blocks.noise_at]
  have hrow : row m c (((cfg0.win 5).blk t).view.emb (ix2 0 q)) = step m c (ix1 ⟨256 * t.val + q.val, hp⟩) := by
    unfold row
    refine congrArg (fun p : Fin 8192 => step m c (ix1 p)) (Fin.ext ?_)
    show win0_5.index t (1 : Fin 2) * 256 + 1 * q.val = 256 * t.val + q.val
    omega
  rw [hrow]
  unfold step
  rw [Cert.Spike.spikes_apply]
  unfold Cert.Spike.current
  refine congrArg (fun s => Cert.Spike.fires _ s _ _) (Finset.sum_congr rfl fun k _ => ?_)
  rw [Blocks.spike_at, Blocks.synapse_at m c t q k ⟨256 * t.val + q.val, hp⟩ rfl]

/-- An index of the output row is in point t's block iff each coordinate is in the block's range on its axis. -/
theorem mem_block (t : Fin cfg0.N) (i : S1x8192.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v3).slice (win0_5.rect t)).set ↔ _
  rw [View.set_slice_whole, Rect.mem_set_unit]
  exact Iff.rfl

/-- The 32 blocks tile the row: column p is in the block of point p / 256. -/
theorem covered (i : S1x8192.Idx) : ∃ t : Fin cfg0.N, (cfg0.win 5).flush t = true ∧ i ∈ ((cfg0.win 5).blk t).view.set := by
  have h0 : (i 0).val < 1 := idx2_lt0 i
  have h1 : (i 1).val < 8192 := idx2_lt1 i
  refine ⟨⟨(i 1).val / 256, by rw [show cfg0.N = 32 from N_0]; omega⟩, flush0_5 _, ?_⟩
  rw [mem_block]
  obtain ⟨-, -, -, -, -, -, -, -, -, -, e50, e51, -⟩ := Blocks.index_facts ⟨(i 1).val / 256, by rw [show cfg0.N = 32 from N_0]; omega⟩
  intro a
  match a with
  | ⟨0, _⟩ => show win0_5.index _ (0 : Fin 2) * 1 ≤ (i 0).val ∧ (i 0).val < win0_5.index _ (0 : Fin 2) * 1 + 1; rw [e50]; omega
  | ⟨1, _⟩ => show win0_5.index _ (1 : Fin 2) * 256 ≤ (i 1).val ∧ (i 1).val < win0_5.index _ (1 : Fin 2) * 256 + 256; rw [e51]; dsimp only; omega

/-- THE OUTPUT ROW after the run. -/
theorem final_row (c : Dev nD) : (dats m 0 c).arrAt 5 cfg0.N = row m c :=
  (dats m 0 c).arrAt_eq_of_cover 5 (row m c) (fun t _ => written_block m c t) (covered)

/-- The host's reshape of the output row is the spiking step. -/
theorem tail_eq (c : Dev nD) :
    Pipeline.afterTail₀ cfgs (dats m) 0 (V0 m) [hostOps1] c main_v4 = step m c := by
  unfold Pipeline.afterTail₀
  show StableHlo.after hostOps1 _ (Proc.devRef .tc main_v4) = _
  after_results
  have e : (Pipeline.withArrays (cfgs 0).spec c (V0 m c) (fun w => (dats m 0 c).arrAt w (cfgs 0).N) (Proc.devRef .tc main_v3) : S1x8192.Idx → Ideal .f32) = row m c :=
    (Pipeline.withArrays_arr spec0 launch0.win.arr_inj c (V0 m c) (fun w => (dats m 0 c).arrAt w cfg0.N) 5).trans (final_row m c)
  funext i
  obtain ⟨p, rfl⟩ : ∃ p : Fin 8192, i = ix1 p := ⟨i 0, eq_ix1 i⟩
  show shapeCast S8192 (Pipeline.withArrays (cfgs 0).spec c (V0 m c) (fun w => (dats m 0 c).arrAt w (cfgs 0).N) (Proc.devRef .tc main_v3)) shapeCasts_S1x8192_S8192 (ix1 p) = _
  rw [e, Blocks.vector_of_row]
  rfl

/-- The run, read: every weakly fair execution ends with the result vector at the spiking step of the arguments
    and the arguments unchanged. -/
theorem run : θ_run defs (onTc (τ := τ) (main (F := Ideal))) ⟨m, fun _ => 0, ρ⟩ fun r => ∀ c : Dev nD,
      r.2.mem ((c.tc : Thread nD τ).loc main_v4) = step m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  The kernel and its reference compute one spiking step. A synapse's weight is the bit "state > 50"; neuron j's
  current is the sum over the 8192 inputs k of spike k times the weight of synapse (j, k); the neuron's output is the
  bit "(membrane j + current j) + noise j ≥ threshold j" as a number.

  The kernel tiles the neurons in 32 blocks of 256: at point t it thresholds rows 256·t … 256·t + 255 of the synapse
  matrix, multiplies the spike row into them on the matrix unit (a zero accumulator; at the ideal instance the change
  to bf16 is the identity and the product is the exact sum), adds the membrane and noise slices at lane offset 256·t,
  compares with the threshold slice, and writes lanes 256·t … 256·t + 255 of a one-row output, which the host reshapes
  to a vector. The reference thresholds the whole matrix, transposes it, takes the host's product with the spike row,
  reshapes, adds and compares. Index by index both are the same extended real: the same sum of the same products in
  the same operand order, the same two additions, the same comparison — no law of arithmetic is needed beyond
  reading each side at an index, so the precondition is not used.

  The ideal pass rewrote nothing, so the kernel's idealization is its own text and that conjunct is trivial.
-/
import proofs.«137847_j54434415510063_2_alg».proof.Defs
import proofs.«137847_j54434415510063_2_alg».proof.Proof.Gen.Kernel
import proofs.«137847_j54434415510063_2_alg».proof.Proof.Gen.Kernel.Skeleton
import proofs.«137847_j54434415510063_2_alg».proof.Proof.Gen.Kernel.Launch
import proofs.«137847_j54434415510063_2_alg».proof.Proof.Gen.Kernel.Points
import proofs.«137847_j54434415510063_2_alg».proof.Proof.Gen.Kernel.Frame
import proofs.«137847_j54434415510063_2_alg».proof.Proof.Gen.KernelIdeal
import proofs.«137847_j54434415510063_2_alg».proof.Proof.Gen.KernelIdeal.Skeleton
import proofs.«137847_j54434415510063_2_alg».proof.Proof.Gen.KernelIdeal.Launch
import proofs.«137847_j54434415510063_2_alg».proof.Proof.Gen.KernelIdeal.Points
import proofs.«137847_j54434415510063_2_alg».proof.Proof.Gen.KernelIdeal.Frame
import proofs.«137847_j54434415510063_2_alg».proof.Proof.Gen.ReferenceIdeal
import proofs.«137847_j54434415510063_2_alg».proof.Proof.Gen.ReferenceIdeal.Run
import proofs.«137847_j54434415510063_2_alg».proof.Proof.Gen.ReferenceIdeal.Read
import proofs.«137847_j54434415510063_2_alg».proof.Proof.Gen.Pre_finite_inputs
import proofs.«137847_j54434415510063_2_alg».proof.Proof.RefSpec
import proofs.«137847_j54434415510063_2_alg».proof.Proof.Result
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance the kernel's result vector ends at the spiking step of its arguments, and the reference's at
    the same function of arguments that agree. -/
theorem algebraic : Cert.algebraic_KernelIdeal_ReferenceIdeal := by
  intro m ρ m' ρ' _ hagree
  refine ⟨fun c => Cert.KernelIdeal.Result.step m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))).trans ?_
  rw [Cert.ReferenceIdeal.RefSpec.ref_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
